-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel

variable [Facts]

def fn {F : FTy → Type} [FloatOps F] (main_arg0 : FVec F S8x19x512x512 .f32) (main_arg1 : IVec S8x512x512 32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  main_v3
-- ==== Kernel.lean ====
abbrev S8x19x512x512 : Shape := ⟨4, ![8, 19, 512, 512]⟩
abbrev S8x512x512 : Shape := ⟨3, ![8, 512, 512]⟩
abbrev S8x1x19 : Shape := ⟨3, ![8, 1, 19]⟩
abbrev S1x19x128x512 : Shape := ⟨4, ![1, 19, 128, 512]⟩
abbrev S1x128x512 : Shape := ⟨3, ![1, 128, 512]⟩
abbrev S1x1x19 : Shape := ⟨3, ![1, 1, 19]⟩
abbrev S1x19 : Shape := ⟨2, ![1, 19]⟩
abbrev S1x1x128x512 : Shape := ⟨4, ![1, 1, 128, 512]⟩
abbrev S1x19x1x1 : Shape := ⟨4, ![1, 19, 1, 1]⟩
abbrev S1x19x128 : Shape := ⟨3, ![1, 19, 128]⟩
abbrev S8x19 : Shape := ⟨2, ![8, 19]⟩
abbrev S_ : Shape := ⟨0, ![]⟩

abbrev nBuf : Space → Nat
  | .hbm => 23
  | .vmem => 10
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x1x19, .f32⟩
  | .hbm, ⟨3, _⟩ => ⟨S8x1x19, .f32⟩
  | .hbm, ⟨4, _⟩ => ⟨S8x19, .f32⟩
  | .hbm, ⟨5, _⟩ => ⟨S8x19, .f32⟩
  | .hbm, ⟨6, _⟩ => ⟨S_, .f32⟩
  | .hbm, ⟨7, _⟩ => ⟨S8x19, .f32⟩
  | .hbm, ⟨8, _⟩ => ⟨S8x19, .f32⟩
  | .hbm, ⟨9, _⟩ => ⟨S_, .f32⟩
  | .hbm, ⟨10, _⟩ => ⟨S8x19, .f32⟩
  | .hbm, ⟨11, _⟩ => ⟨S8x19, .f32⟩
  | .hbm, ⟨12, _⟩ => ⟨S_, .f32⟩
  | .hbm, ⟨13, _⟩ => ⟨S8x19, .f32⟩
  | .hbm, ⟨14, _⟩ => ⟨S8x19, .f32⟩
  | .hbm, ⟨15, _⟩ => ⟨S8x19, .f32⟩
  | .hbm, ⟨16, _⟩ => ⟨S_, .f32⟩
  | .hbm, ⟨17, _⟩ => ⟨S8x19, .f32⟩
  | .hbm, ⟨18, _⟩ => ⟨S8x19, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x19x128x512, .f32⟩
  | .local _ .vmem, ⟨1, _⟩ => ⟨S1x19x128x512, .f32⟩
  | .local _ .vmem, ⟨2, _⟩ => ⟨S1x128x512, .i32⟩
  | .local _ .vmem, ⟨3, _⟩ => ⟨S1x128x512, .i32⟩
  | .local _ .vmem, ⟨4, _⟩ => ⟨S1x1x19, .f32⟩
  | .local _ .vmem, ⟨5, _⟩ => ⟨S1x1x19, .f32⟩
  | .local _ .vmem, ⟨6, _⟩ => ⟨S1x1x19, .f32⟩
  | .local _ .vmem, ⟨7, _⟩ => ⟨S1x1x19, .f32⟩
  | .local _ .vmem, ⟨8, _⟩ => ⟨S1x19, .f32⟩
  | .local _ .vmem, ⟨9, _⟩ => ⟨S1x19, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_22 : BitVec 32 := 0#32
  let v41 : BitVec 1 := Scalar.cmpi .ne v40 c0_i32_22
  v41

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x19 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x19_S1x19_0_0 : ∀ a, (![0, 0] : Fin 2 → Nat) a + S1x19.size a ≤ S1x19.size a
  h_S1x19 : 0 < S1x19.numel
  shapeCasts_S1x19_S1x19 : S1x19.ShapeCasts S1x19
  inb_S1x19x128x512_S1x19x128x512_0_0_0_0 : ∀ a, (![0, 0, 0, 0] : Fin 4 → Nat) a + S1x19x128x512.size a ≤ S1x19x128x512.size a
  h_S1x19x128x512 : 0 < S1x19x128x512.numel
  inb_S1x128x512_S1x128x512_0_0_0 : ∀ a, (![0, 0, 0] : Fin 3 → Nat) a + S1x128x512.size a ≤ S1x128x512.size a
  h_S1x128x512 : 0 < S1x128x512.numel
  reduces_S1x19x128x512_S1x128x512 : S1x19x128x512.Reduces [1] S1x128x512
  shapeCasts_S1x128x512_S1x1x128x512 : S1x128x512.ShapeCasts S1x1x128x512
  broadcasts_S1x1x128x512_S1x19x128x512 : S1x1x128x512.Broadcasts S1x19x128x512
  iota_S1x19x1x1_d1_w32 : S1x19x1x1.Iotas .tc 32 [1]
  broadcasts_S1x19x1x1_S1x19x128x512 : S1x19x1x1.Broadcasts S1x19x128x512
  natLt_1_32 : 1 < 32
  reduces_S1x19x128x512_S1x19x128 : S1x19x128x512.Reduces [3] S1x19x128
  reduces_S1x19x128_S1x19 : S1x19x128.Reduces [2] S1x19
  shapeCasts_S1x19_S1x1x19 : S1x19.ShapeCasts S1x1x19
  inb_S1x1x19_S1x1x19_0_0_0 : ∀ a, (![0, 0, 0] : Fin 3 → Nat) a + S1x1x19.size a ≤ S1x1x19.size a
  h_S1x1x19 : 0 < S1x1x19.numel
  shapeCasts_S8x1x19_S8x19 : S8x1x19.ShapeCasts S8x19
  bcast_S_S8x19 : S_.BroadcastsInDim S8x19 (![] : Fin 0 → Fin S8x19.rank)
  reducesTo_S8x19_S_d0_1 : S8x19.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x512.size a ≤ S8x19x512x512.size a
  hwx0_0 : ∀ i : grid0.Coords, EltTy.bits .f32 = 32 ∨ (Rect.block (s := S8x19x512x512) S1x19x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .i32 = 32 ∨ (Rect.block (s := S8x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x19.size a ≤ S8x1x19.size a
  hwx0_2 : ∀ i : grid0.Coords, EltTy.bits .f32 = 32 ∨ (Rect.block (s := S8x1x19) S1x1x19.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x19.size a ≤ S8x1x19.size a
  hwx0_3 : ∀ i : grid0.Coords, EltTy.bits .f32 = 32 ∨ (Rect.block (s := S8x1x19) S1x1x19.size (cc0_transform_3 i) (hinb0_3 i)).WholeWords (EltTy.packing .f32)

variable [Facts₀]

abbrev win0_0 : Pipeline.Window sig grid0 :=
  Pipeline.Window.ofSpec (Memref.whole main_arg0) S1x19x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x19.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x19.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S19 : Shape := ⟨1, ![19]⟩
abbrev S1x19x1x1 : Shape := ⟨4, ![1, 19, 1, 1]⟩
abbrev S8x19 : Shape := ⟨2, ![8, 19]⟩

abbrev nBuf : Space → Nat
  | .hbm => 48
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x19x512x512, .f32⟩
  | .hbm, ⟨9, _⟩ => ⟨S8x19x512x512, .f32⟩
  | .hbm, ⟨10, _⟩ => ⟨S8x19x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x19x512x512, .f32⟩
  | .hbm, ⟨15, _⟩ => ⟨S8x19x512x512, .f32⟩
  | .hbm, ⟨16, _⟩ => ⟨S8x1x512x512, .i32⟩
  | .hbm, ⟨17, _⟩ => ⟨S19, .i32⟩
  | .hbm, ⟨18, _⟩ => ⟨S1x19x1x1, .i32⟩
  | .hbm, ⟨19, _⟩ => ⟨S8x19x512x512, .i32⟩
  | .hbm, ⟨20, _⟩ => ⟨S8x19x512x512, .i32⟩
  | .hbm, ⟨21, _⟩ => ⟨S8x19x512x512, .i1⟩
  | .hbm, ⟨22, _⟩ => ⟨S8x19x512x512, .f32⟩
  | .hbm, ⟨23, _⟩ => ⟨S8x19x512x512, .f32⟩
  | .hbm, ⟨24, _⟩ => ⟨S_, .f32⟩
  | .hbm, ⟨25, _⟩ => ⟨S8x19, .f32⟩
  | .hbm, ⟨26, _⟩ => ⟨S_, .f32⟩
  | .hbm, ⟨27, _⟩ => ⟨S8x19, .f32⟩
  | .hbm, ⟨28, _⟩ => ⟨S_, .f32⟩
  | .hbm, ⟨29, _⟩ => ⟨S8x19, .f32⟩
  | .hbm, ⟨30, _⟩ => ⟨S8x19, .f32⟩
  | .hbm, ⟨31, _⟩ => ⟨S_, .f32⟩
  | .hbm, ⟨32, _⟩ => ⟨S8x19, .f32⟩
  | .hbm, ⟨33, _⟩ => ⟨S8x19, .f32⟩
  | .hbm, ⟨34, _⟩ => ⟨S_, .f32⟩
  | .hbm, ⟨35, _⟩ => ⟨S8x19, .f32⟩
  | .hbm, ⟨36, _⟩ => ⟨S8x19, .f32⟩
  | .hbm, ⟨37, _⟩ => ⟨S_, .f32⟩
  | .hbm, ⟨38, _⟩ => ⟨S8x19, .f32⟩
  | .hbm, ⟨39, _⟩ => ⟨S8x19, .f32⟩
  | .hbm, ⟨40, _⟩ => ⟨S8x19, .f32⟩
  | .hbm, ⟨41, _⟩ => ⟨S_, .f32⟩
  | .hbm, ⟨42, _⟩ => ⟨S8x19, .f32⟩
  | .hbm, ⟨43, _⟩ => ⟨S8x19, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S8x19x512x512_S8x512x512_d1 : S8x19x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S19_S1x19x1x1_1 : S19.BroadcastsInDim S1x19x1x1 (![1] : Fin 1 → Fin S1x19x1x1.rank)
  bcast_S1x19x1x1_S8x19x512x512_0_1_2_3 : S1x19x1x1.BroadcastsInDim S8x19x512x512 (![0, 1, 2, 3] : Fin 4 → Fin S8x19x512x512.rank)
  reducesTo_S8x19x512x512_S8x19_d2_3 : S8x19x512x512.ReducesTo [2, 3] S8x19
  bcast_S_S8x19 : S_.BroadcastsInDim S8x19 (![] : Fin 0 → Fin S8x19.rank)
  reducesTo_S8x19_S_d0_1 : S8x19.ReducesTo [0, 1] S_

variable [Facts₀]

class Facts : Prop extends Facts₀ where

variable [Facts]
-- ==== Proof.Spec.lean ====
/-
  The dice loss, as plain mathematics over the extended reals.

  A pixel (b, h, w) carries nineteen class scores; its softmax at class c is
  exp(x_c − M) / Σ_k exp(x_k − M) with M the largest score, and its one-hot mark at class c is
  1 when the pixel's label is c and 0 otherwise.  For a batch entry b and a class c the
  intersection is the sum over all 512 × 512 pixels of softmax · mark, and the union is the sum
  of the softmaxes plus the sum of the marks.  The same two sums restricted to one tile of
  128 rows are what one grid step adds to its accumulators.  Nothing here mentions a program.
-/
import Idealize.ShloMosaic.PureOps.Ideal
import Idealize.ShloMosaic.PureOps.Ideal.Laws
import Idealize.ShloMosaic.Lib.ValueIdx

noncomputable section

namespace Cert.Dice

open Idealize.ShloMosaic Idealize.ShloMosaic.ValueIdx
open scoped BigOperators

/-- The largest of a pixel's nineteen class scores, the maximum taken from −∞ (the f32 word
    `0xFF800000`). -/
def colMax (col : Fin 19 → EReal) : EReal :=
  (Finset.univ : Finset (Fin 19)).fold max (Ideal.ofBits .f32 0xFF800000#32) col

/-- The softmax of a pixel's scores at class `c`. -/
def soft (col : Fin 19 → EReal) (c : Fin 19) : EReal :=
  Ideal.div (Ideal.exp (col c - colMax col)) (∑ k : Fin 19, Ideal.exp (col k - colMax col))

/-- The one-hot mark of a label at class `c`. -/
def hot (tgt : BitVec 32) (c : Fin 19) : EReal :=
  if tgt = BitVec.ofNat 32 c.val then 1 else 0

/-! ## Over the whole arrays -/

/-- Softmax of pixel (b, h, w) of the score array at class c. -/
def pSoft (a0 : (⟨4, ![8, 19, 512, 512]⟩ : Shape).Idx → EReal) (b : Fin 8) (c : Fin 19) (h w : Fin 512) : EReal :=
  soft (fun k => a0 (ix4 b k h w)) c

/-- One-hot mark of pixel (b, h, w) of the label array at class c. -/
def pHot (a1 : (⟨3, ![8, 512, 512]⟩ : Shape).Idx → BitVec 32) (b : Fin 8) (c : Fin 19) (h w : Fin 512) : EReal :=
  hot (a1 (ix3 b h w)) c

/-- The intersection of batch entry b at class c. -/
def inter (a0 : (⟨4, ![8, 19, 512, 512]⟩ : Shape).Idx → EReal) (a1 : (⟨3, ![8, 512, 512]⟩ : Shape).Idx → BitVec 32)
    (b : Fin 8) (c : Fin 19) : EReal :=
  ∑ h : Fin 512, ∑ w : Fin 512, pSoft a0 b c h w * pHot a1 b c h w

/-- The union of batch entry b at class c. -/
def union (a0 : (⟨4, ![8, 19, 512, 512]⟩ : Shape).Idx → EReal) (a1 : (⟨3, ![8, 512, 512]⟩ : Shape).Idx → BitVec 32)
    (b : Fin 8) (c : Fin 19) : EReal :=
  (∑ h : Fin 512, ∑ w : Fin 512, pSoft a0 b c h w) + (∑ h : Fin 512, ∑ w : Fin 512, pHot a1 b c h w)

/-! ## Over one tile of 128 rows -/

/-- Softmax of pixel (r, w) of a score tile at class c. -/
def tSoft (x0 : (⟨4, ![1, 19, 128, 512]⟩ : Shape).Idx → EReal) (c : Fin 19) (r : Fin 128) (w : Fin 512) : EReal :=
  soft (fun k => x0 (ix4 (0 : Fin 1) k r w)) c

/-- One-hot mark of pixel (r, w) of a label tile at class c. -/
def tHot (x1 : (⟨3, ![1, 128, 512]⟩ : Shape).Idx → BitVec 32) (c : Fin 19) (r : Fin 128) (w : Fin 512) : EReal :=
  hot (x1 (ix3 (0 : Fin 1) r w)) c

/-- A tile's share of the intersection at class c. -/
def tInter (x0 : (⟨4, ![1, 19, 128, 512]⟩ : Shape).Idx → EReal) (x1 : (⟨3, ![1, 128, 512]⟩ : Shape).Idx → BitVec 32)
    (c : Fin 19) : EReal :=
  ∑ r : Fin 128, ∑ w : Fin 512, tSoft x0 c r w * tHot x1 c r w

/-- A tile's share of the union at class c. -/
def tUnion (x0 : (⟨4, ![1, 19, 128, 512]⟩ : Shape).Idx → EReal) (x1 : (⟨3, ![1, 128, 512]⟩ : Shape).Idx → BitVec 32)
    (c : Fin 19) : EReal :=
  (∑ r : Fin 128, ∑ w : Fin 512, tSoft x0 c r w) + (∑ r : Fin 128, ∑ w : Fin 512, tHot x1 c r w)

/-! ## Rows regrouped into four tiles -/

/-- Row `r` of tile `t` (tiles of 128 rows) among the 512 rows. -/
def tileRow (t : Fin 4) (r : Fin 128) : Fin 512 :=
  ⟨128 * t.val + r.val, by have := t.isLt; have := r.isLt; omega⟩

/-- In any additive commutative monoid — the extended reals included, no finiteness needed — a sum
    over the 512 rows is the sum over the four tiles of the sums over each tile's 128 rows. -/
theorem sum_rows_tiles {M : Type*} [AddCommMonoid M] (f : Fin 512 → M) :
    ∑ h : Fin 512, f h = ∑ t : Fin 4, ∑ r : Fin 128, f (tileRow t r) := by
  rw [← Equiv.sum_comp (finProdFinEquiv (m := 4) (n := 128)) f, Fintype.sum_prod_type]
  refine Finset.sum_congr rfl fun t _ => Finset.sum_congr rfl fun r _ => congrArg f (Fin.ext ?_)
  rw [finProdFinEquiv_apply_val]
  exact Nat.add_comm _ _

end Cert.Dice

end
-- ==== Proof.KBlocks.lean ====
/-
  What a grid step's two input tiles hold.  Grid step number 4·b + h (batch entry b, row tile h)
  stages rows 128·h … 128·h + 127 of batch entry b: entry (0, k, r, w) of its score tile is entry
  (b, k, 128·h + r, w) of the score array, and entry (0, r, w) of its label tile is entry
  (b, 128·h + r, w) of the label array.  Hence the tile's softmax, one-hot mark and the two tile
  sums are the whole-array ones restricted to those rows.
-/
import proofs.«133151_j15805479649590_2_alg».proof.Proof.Gen.KernelIdeal.Frame
import proofs.«133151_j15805479649590_2_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.Dice
open Idealize.ShloMosaic Idealize.ShloMosaic.TcCoe Idealize.SL.Sem Idealize.ShloMosaic.ValueIdx
open scoped BigOperators

variable {F : FTy → Type} [FloatOps F]
variable (m : (ℓ : Loc nD τ sig) → Buf (Elt F) ℓ)

/-- The score window's block index at a grid step: (batch entry, 0, row tile, 0). -/
theorem index0 : ∀ t : Fin cfg0.N, win0_0.index t 0 = t.val / 4 ∧ win0_0.index t 1 = 0
    ∧ win0_0.index t 2 = t.val % 4 ∧ win0_0.index t 3 = 0 :=
  (by decide +kernel : ∀ t : Fin grid0.N, win0_0.index t 0 = t.val / 4 ∧ win0_0.index t 1 = 0
    ∧ win0_0.index t 2 = t.val % 4 ∧ win0_0.index t 3 = 0)

/-- The label window's block index at a grid step: (batch entry, row tile, 0). -/
theorem index1 : ∀ t : Fin cfg0.N, win0_1.index t 0 = t.val / 4 ∧ win0_1.index t 1 = t.val % 4
    ∧ win0_1.index t 2 = 0 :=
  (by decide +kernel : ∀ t : Fin grid0.N, win0_1.index t 0 = t.val / 4 ∧ win0_1.index t 1 = t.val % 4
    ∧ win0_1.index t 2 = 0)

/-- Entry (0, k, r, w) of the score tile of step 4·b + h is entry (b, k, 128·h + r, w) of the score array. -/
theorem scoreTile_apply (c : Dev nD) (t : Fin cfg0.N) (b : Fin 8) (h : Fin 4) (ht : t.val = 4 * b.val + h.val)
    (k : Fin 19) (r : Fin 128) (w : Fin 512) :
    (iblk m c 0 t : Vec F S1x19x128x512 .f32) (ix4 (0 : Fin 1) k r w)
      = m ((c : Thread nD τ).loc main_arg0) (ix4 b k (tileRow h r) w) := by
  obtain ⟨h0, h1, h2, h3⟩ := index0 t
  unfold iblk
  rw [View.read_apply]
  show V m c main_arg0 _ = m (c.tc.loc main_arg0) _
  rw [V_main_arg0]
  congr 1
  funext a
  apply Fin.ext
  have hb := b.isLt; have hh := h.isLt
  match a with
  | ⟨0, _⟩ => show win0_0.index t 0 * 1 + 1 * 0 = b.val; rw [h0]; omega
  | ⟨1, _⟩ => show win0_0.index t 1 * 19 + 1 * k.val = k.val; rw [h1]; omega
  | ⟨2, _⟩ => show win0_0.index t 2 * 128 + 1 * r.val = 128 * h.val + r.val; rw [h2]; omega
  | ⟨3, _⟩ => show win0_0.index t 3 * 512 + 1 * w.val = w.val; rw [h3]; omega

/-- Entry (0, r, w) of the label tile of step 4·b + h is entry (b, 128·h + r, w) of the label array. -/
theorem labelTile_apply (c : Dev nD) (t : Fin cfg0.N) (b : Fin 8) (h : Fin 4) (ht : t.val = 4 * b.val + h.val)
    (r : Fin 128) (w : Fin 512) :
    (iblk m c 1 t : Vec F S1x128x512 .i32) (ix3 (0 : Fin 1) r w)
      = m ((c : Thread nD τ).loc main_arg1) (ix3 b (tileRow h r) w) := by
  obtain ⟨h0, h1, h2⟩ := index1 t
  unfold iblk
  rw [View.read_apply]
  show V m c main_arg1 _ = m (c.tc.loc main_arg1) _
  rw [V_main_arg1]
  congr 1
  funext a
  apply Fin.ext
  have hb := b.isLt; have hh := h.isLt
  match a with
  | ⟨0, _⟩ => show win0_1.index t 0 * 1 + 1 * 0 = b.val; rw [h0]; omega
  | ⟨1, _⟩ => show win0_1.index t 1 * 128 + 1 * r.val = 128 * h.val + r.val; rw [h1]; omega
  | ⟨2, _⟩ => show win0_1.index t 2 * 512 + 1 * w.val = w.val; rw [h2]; omega

end Cert.KernelIdeal.Blocks

end
-- ==== Proof.KPieces.lean ====
/-
  What one grid step leaves in its buffers, case by case.

  A grid step owns two carried accumulators (each one row of nineteen numbers) and two output
  blocks (the same nineteen numbers shaped [1, 1, 19]).  From the tile's scores `x0` and labels
  `x1` it forms two rows: the tile's sum of softmax · mark, and the tile's sum of softmaxes plus
  sum of marks.  The three control cases differ only in what the accumulators start from and in
  whether the outputs are written:

    A  (first tile of a batch entry)  both accumulators are overwritten with the zero row, then
       read back, and the tile's two rows are added to what was read;
    B  (a middle tile)                the tile's two rows are added to the contents `xs0`, `xs1`
       the step before left;
    C  (the last tile)                as in B, and then each accumulator is read back once more
       and copied, reshaped, into its output block.

  Every store here overwrites its whole buffer, so three facts decide each read-back: after a
  list of whole-buffer stores the buffer holds the payload of the LAST one, whatever came before;
  a whole-buffer load that follows a single whole-buffer store reads that store's payload; and a
  whole-buffer load of a buffer nothing has stored into reads the contents it was handed.  With
  them each buffer's final contents is one closed expression in `x0`, `x1` and the starting
  accumulators, written with the payload functions of the imported (generated) skeleton.
-/
import proofs.«133151_j15805479649590_2_alg».proof.Proof.Gen.KernelIdeal.Frame
import Idealize.ShloMosaic.Lib.Pipeline.Value

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-! ## The zero offset, in each rank used -/

/-- The offset of a whole-buffer access of a rank-2 buffer is zero on every axis. -/
private theorem hz2 : (![0, 0] : Fin 2 → Nat) = fun _ => 0 := funext fun a => by fin_cases a <;> rfl
/-- The same for rank 3. -/
private theorem hz3 : (![0, 0, 0] : Fin 3 → Nat) = fun _ => 0 := funext fun a => by fin_cases a <;> rfl
/-- The same for rank 4. -/
private theorem hz4 : (![0, 0, 0, 0] : Fin 4 → Nat) = fun _ => 0 := funext fun a => by fin_cases a <;> rfl

/-! ## Case B: a middle tile -/

/-- After a middle tile the first accumulator holds its earlier contents `xs0` plus the tile's sum of
    softmax · mark: its one store overwrites the whole row, and the three loads that feed the
    payload each read a whole untouched buffer. -/
theorem sout_B_0 (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x19 .f32) (harg4 : arg4.IsWhole) (arg5 : Memref sig .tc .vmem S1x1x19 .f32) (harg5 : arg5.IsWhole) (arg6 : Memref sig .tc .vmem S1x19 .f32) (harg6 : arg6.IsWhole) (arg7 : Memref sig .tc .vmem S1x19 .f32) (harg7 : arg7.IsWhole) (hc0 : ¬cond0_0 i) (hc1 : ¬cond0_1 i) (x0 : Vec F S1x19x128x512 .f32) (x1 : Vec F S1x128x512 .i32) (xs0 xs1 : Vec F S1x19 .f32) :
    sout0_B_0 c i arg2 harg2 arg3 harg3 arg4 harg4 arg5 harg5 arg6 harg6 arg7 harg7 hc0 hc1 x0 x1 xs0 xs1 = k0_pay9 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x19) hz2]
  simp only [View.readAt_eq_ld, harg2.read_unread, harg3.read_unread, harg6.read_unread,
    View.ld_unit_zero (S := S1x19x128x512) hz4, View.ld_unit_zero (S := S1x128x512) hz3, View.ld_unit_zero (S := S1x19) hz2]

/-- After a middle tile the second accumulator holds its earlier contents `xs1` plus the tile's sum of
    softmaxes and of marks. -/
theorem sout_B_1 (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x19 .f32) (harg4 : arg4.IsWhole) (arg5 : Memref sig .tc .vmem S1x1x19 .f32) (harg5 : arg5.IsWhole) (arg6 : Memref sig .tc .vmem S1x19 .f32) (harg6 : arg6.IsWhole) (arg7 : Memref sig .tc .vmem S1x19 .f32) (harg7 : arg7.IsWhole) (hc0 : ¬cond0_0 i) (hc1 : ¬cond0_1 i) (x0 : Vec F S1x19x128x512 .f32) (x1 : Vec F S1x128x512 .i32) (xs0 xs1 : Vec F S1x19 .f32) :
    sout0_B_1 c i arg2 harg2 arg3 harg3 arg4 harg4 arg5 harg5 arg6 harg6 arg7 harg7 hc0 hc1 x0 x1 xs0 xs1 = k0_pay1 (k0_pay8 x0 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x19) hz2]
  simp only [View.readAt_eq_ld, harg2.read_unread, harg3.read_unread, harg7.read_unread,
    View.ld_unit_zero (S := S1x19x128x512) hz4, View.ld_unit_zero (S := S1x128x512) hz3, View.ld_unit_zero (S := S1x19) hz2]

/-! ## Case C: the last tile -/

/-- After the last tile the first accumulator is updated exactly as after a middle one. -/
theorem sout_C_0 (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x19 .f32) (harg4 : arg4.IsWhole) (arg5 : Memref sig .tc .vmem S1x1x19 .f32) (harg5 : arg5.IsWhole) (arg6 : Memref sig .tc .vmem S1x19 .f32) (harg6 : arg6.IsWhole) (arg7 : Memref sig .tc .vmem S1x19 .f32) (harg7 : arg7.IsWhole) (hc0 : ¬cond0_0 i) (hc1 : cond0_1 i) (x0 : Vec F S1x19x128x512 .f32) (x1 : Vec F S1x128x512 .i32) (xs0 xs1 : Vec F S1x19 .f32) :
    sout0_C_0 c i arg2 harg2 arg3 harg3 arg4 harg4 arg5 harg5 arg6 harg6 arg7 harg7 hc0 hc1 x0 x1 xs0 xs1 = k0_pay9 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x19) hz2]
  simp only [View.readAt_eq_ld, harg2.read_unread, harg3.read_unread, harg6.read_unread,
    View.ld_unit_zero (S := S1x19x128x512) hz4, View.ld_unit_zero (S := S1x128x512) hz3, View.ld_unit_zero (S := S1x19) hz2]

/-- After the last tile the second accumulator is updated exactly as after a middle one. -/
theorem sout_C_1 (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x19 .f32) (harg4 : arg4.IsWhole) (arg5 : Memref sig .tc .vmem S1x1x19 .f32) (harg5 : arg5.IsWhole) (arg6 : Memref sig .tc .vmem S1x19 .f32) (harg6 : arg6.IsWhole) (arg7 : Memref sig .tc .vmem S1x19 .f32) (harg7 : arg7.IsWhole) (hc0 : ¬cond0_0 i) (hc1 : cond0_1 i) (x0 : Vec F S1x19x128x512 .f32) (x1 : Vec F S1x128x512 .i32) (xs0 xs1 : Vec F S1x19 .f32) :
    sout0_C_1 c i arg2 harg2 arg3 harg3 arg4 harg4 arg5 harg5 arg6 harg6 arg7 harg7 hc0 hc1 x0 x1 xs0 xs1 = k0_pay1 (k0_pay8 x0 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x19) hz2]
  simp only [View.readAt_eq_ld, harg2.read_unread, harg3.read_unread, harg7.read_unread,
    View.ld_unit_zero (S := S1x19x128x512) hz4, View.ld_unit_zero (S := S1x128x512) hz3, View.ld_unit_zero (S := S1x19) hz2]

/-- The first output block receives the first accumulator as just updated, reshaped to [1, 1, 19]:
    the load that feeds it follows the accumulator's one whole-row store and so reads that
    store's payload. -/
theorem out_C_2 (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x19 .f32) (harg4 : arg4.IsWhole) (arg5 : Memref sig .tc .vmem S1x1x19 .f32) (harg5 : arg5.IsWhole) (arg6 : Memref sig .tc .vmem S1x19 .f32) (harg6 : arg6.IsWhole) (arg7 : Memref sig .tc .vmem S1x19 .f32) (harg7 : arg7.IsWhole) (hc0 : ¬cond0_0 i) (hc1 : cond0_1 i) (x0 : Vec F S1x19x128x512 .f32) (x1 : Vec F S1x128x512 .i32) (xs0 xs1 : Vec F S1x19 .f32) :
    out0_C_2 c i arg2 harg2 arg3 harg3 arg4 harg4 arg5 harg5 arg6 harg6 arg7 harg7 hc0 hc1 x0 x1 xs0 xs1 = k0_pay2 (k0_pay9 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x19) hz3, View.readCov_unit_zero (S := S1x19) _ hz2]
  simp only [View.readAt_eq_ld, harg2.read_unread, harg3.read_unread, harg6.read_unread,
    View.ld_unit_zero (S := S1x19x128x512) hz4, View.ld_unit_zero (S := S1x128x512) hz3, View.ld_unit_zero (S := S1x19) hz2]

/-- The second output block receives the second accumulator as just updated, reshaped likewise. -/
theorem out_C_3 (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x19 .f32) (harg4 : arg4.IsWhole) (arg5 : Memref sig .tc .vmem S1x1x19 .f32) (harg5 : arg5.IsWhole) (arg6 : Memref sig .tc .vmem S1x19 .f32) (harg6 : arg6.IsWhole) (arg7 : Memref sig .tc .vmem S1x19 .f32) (harg7 : arg7.IsWhole) (hc0 : ¬cond0_0 i) (hc1 : cond0_1 i) (x0 : Vec F S1x19x128x512 .f32) (x1 : Vec F S1x128x512 .i32) (xs0 xs1 : Vec F S1x19 .f32) :
    out0_C_3 c i arg2 harg2 arg3 harg3 arg4 harg4 arg5 harg5 arg6 harg6 arg7 harg7 hc0 hc1 x0 x1 xs0 xs1 = k0_pay3 (k0_pay1 (k0_pay8 x0 x1) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x1x19) hz3, View.readCov_unit_zero (S := S1x19) _ hz2]
  simp only [View.readAt_eq_ld, harg2.read_unread, harg3.read_unread, harg7.read_unread,
    View.ld_unit_zero (S := S1x19x128x512) hz4, View.ld_unit_zero (S := S1x128x512) hz3, View.ld_unit_zero (S := S1x19) hz2]

/-! ## Case A: the first tile of a batch entry -/

/-- After the first tile the first accumulator holds the zero row plus the tile's sum of
    softmax · mark: of its two whole-row stores the later one decides, and the value that store
    adds to was read back right after the zero row was stored, so it is the zero row. -/
theorem sout_A_0 (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x19 .f32) (harg4 : arg4.IsWhole) (arg5 : Memref sig .tc .vmem S1x1x19 .f32) (harg5 : arg5.IsWhole) (arg6 : Memref sig .tc .vmem S1x19 .f32) (harg6 : arg6.IsWhole) (arg7 : Memref sig .tc .vmem S1x19 .f32) (harg7 : arg7.IsWhole) (hc0 : cond0_0 i) (hc1 : ¬cond0_1 i) (x0 : Vec F S1x19x128x512 .f32) (x1 : Vec F S1x128x512 .i32) :
    sout0_A_0 c i arg2 harg2 arg3 harg3 arg4 harg4 arg5 harg5 arg6 harg6 arg7 harg7 hc0 hc1 x0 x1 = k0_pay9 x0 x1 (k0_pay4 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x19) hz2, View.readCov_unit_zero (S := S1x19) _ hz2]
  simp only [View.readAt_eq_ld, harg2.read_unread, harg3.read_unread,
    View.ld_unit_zero (S := S1x19x128x512) hz4, View.ld_unit_zero (S := S1x128x512) hz3]

/-- After the first tile the second accumulator holds the zero row plus the tile's sum of
    softmaxes and of marks, for the same reason. -/
theorem sout_A_1 (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x19 .f32) (harg4 : arg4.IsWhole) (arg5 : Memref sig .tc .vmem S1x1x19 .f32) (harg5 : arg5.IsWhole) (arg6 : Memref sig .tc .vmem S1x19 .f32) (harg6 : arg6.IsWhole) (arg7 : Memref sig .tc .vmem S1x19 .f32) (harg7 : arg7.IsWhole) (hc0 : cond0_0 i) (hc1 : ¬cond0_1 i) (x0 : Vec F S1x19x128x512 .f32) (x1 : Vec F S1x128x512 .i32) :
    sout0_A_1 c i arg2 harg2 arg3 harg3 arg4 harg4 arg5 harg5 arg6 harg6 arg7 harg7 hc0 hc1 x0 x1 = k0_pay1 (k0_pay8 x0 x1) (k0_pay5 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x19) hz2, View.readCov_unit_zero (S := S1x19) _ hz2]
  simp only [View.readAt_eq_ld, harg2.read_unread, harg3.read_unread,
    View.ld_unit_zero (S := S1x19x128x512) hz4, View.ld_unit_zero (S := S1x128x512) hz3]

end Cert.KernelIdeal.Pieces

end
-- ==== Proof.KPay.lean ====
/-
  The kernel body's payload terms read at an index, over the extended reals, as the dice
  specification's tile sums: the zero splats are 0, the accumulator updates are sums, the unit-axis
  casts keep the class coordinate, the softmax payload is the specification's softmax of a pixel's
  nineteen scores, the comparison with the class iota is the one-hot mark, and the two nested lane
  sums are the sums over a tile's 128 rows and 512 columns.
-/
import proofs.«133151_j15805479649590_2_alg».proof.Proof.Gen.KernelIdeal.Skeleton
import proofs.«133151_j15805479649590_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Dice Idealize.ShloMosaic Idealize.ShloMosaic.ValueIdx
open scoped BigOperators

/-! ## The zero splats, the accumulator update, and the unit-axis casts -/

/-- The splat of the f32 word `0x00000000`, cast to its own shape, is 0 everywhere. -/
theorem pay4_apply (j : S1x19.Idx) : k0_pay4 (F := Ideal) j = 0 := by
  unfold k0_pay4
  rw [shapeCast_self]
  exact Ideal.ofBits_zero_f32

/-- The second accumulator's reset likewise. -/
theorem pay5_apply (j : S1x19.Idx) : k0_pay5 (F := Ideal) j = 0 := by
  unfold k0_pay5
  rw [shapeCast_self]
  exact Ideal.ofBits_zero_f32

/-- The union accumulator's update: what it held plus the tile's share. -/
theorem pay1_apply (v28 : FVec Ideal S1x19 .f32) (v34 : Vec Ideal S1x19 .f32) (j : S1x19.Idx) :
    k0_pay1 v28 v34 j = v34 j + v28 j := by
  unfold k0_pay1
  rw [shapeCast_self]
  rfl

/-- A [1,19] row stored as a [1,1,19] block keeps its class coordinate. -/
theorem pay2_apply (v42 : Vec Ideal S1x19 .f32) (k : Fin 19) :
    k0_pay2 v42 (ix3 (0 : Fin 1) (0 : Fin 1) k) = v42 (ix2 (0 : Fin 1) k) := by
  unfold k0_pay2
  exact shapeCast_ab_1ab_apply v42 shapeCasts_S1x19_S1x1x19 (0 : Fin 1) (0 : Fin 1) k

/-- The second output block likewise. -/
theorem pay3_apply (v45 : Vec Ideal S1x19 .f32) (k : Fin 19) :
    k0_pay3 v45 (ix3 (0 : Fin 1) (0 : Fin 1) k) = v45 (ix2 (0 : Fin 1) k) := by
  unfold k0_pay3
  exact shapeCast_ab_1ab_apply v45 shapeCasts_S1x19_S1x1x19 (0 : Fin 1) (0 : Fin 1) k

/-! ## Index bookkeeping for the class axis -/

/-- Inserting class coordinate `k` into the pixel index (0, r, w) gives the score index (0, k, r, w). -/
theorem lift_class (h : S1x19x128x512.Reduces [1] S1x128x512) (r : Fin 128) (w : Fin 512) (k : Fin 19) :
    h.lift (ix3 (0 : Fin 1) r w) k = ix4 (0 : Fin 1) k r w := by
  funext c
  match c with
  | ⟨0, _⟩ => exact Fin.ext rfl
  | ⟨1, _⟩ => exact Fin.ext rfl
  | ⟨2, _⟩ => exact Fin.ext rfl
  | ⟨3, _⟩ => exact Fin.ext rfl

/-- A per-pixel value [1,128,512], viewed [1,1,128,512] and repeated over the nineteen classes, reads the
    pixel's value at every class. -/
theorem bcast_pixel {α : Type} (v : S1x128x512.Idx → α) (k : Fin 19) (r : Fin 128) (w : Fin 512) :
    broadcastTo S1x19x128x512 (shapeCast S1x1x128x512 v shapeCasts_S1x128x512_S1x1x128x512)
      broadcasts_S1x1x128x512_S1x19x128x512 (ix4 (0 : Fin 1) k r w) = v (ix3 (0 : Fin 1) r w) := by
  refine (broadcastTo_apply _ broadcasts_S1x1x128x512_S1x19x128x512 (ix4 (0 : Fin 1) k r w)
    (ix4 (0 : Fin 1) (0 : Fin 1) r w) ?_).trans ?_
  · intro a
    match a with
    | ⟨0, _⟩ => rfl
    | ⟨1, _⟩ => rfl
    | ⟨2, _⟩ => rfl
    | ⟨3, _⟩ => rfl
  · exact shapeCast_abc_1abc_apply v shapeCasts_S1x128x512_S1x1x128x512 (0 : Fin 1) (0 : Fin 1) r w

/-- The maximum over the class axis, at a pixel, is the largest of the pixel's nineteen scores. -/
theorem classMax_apply (x : FVec Ideal S1x19x128x512 .f32) (r : Fin 128) (w : Fin 512) :
    multiReduction (F := Ideal) .maximumf [1] S1x128x512 x 0xFF800000#32 reduces_S1x19x128x512_S1x128x512 (.inl rfl) rfl
      (ix3 (0 : Fin 1) r w) = colMax (fun k => x (ix4 (0 : Fin 1) k r w)) := by
  refine (Ideal.multiReduction_maximumf_single x 0xFF800000#32 reduces_S1x19x128x512_S1x128x512 (.inl rfl) rfl
    (ix3 (0 : Fin 1) r w)).trans ?_
  unfold colMax
  exact congrArg (fun f : Fin 19 → EReal => (Finset.univ : Finset (Fin 19)).fold max (Ideal.ofBits .f32 0xFF800000#32) f)
    (funext fun k => congrArg x (lift_class reduces_S1x19x128x512_S1x128x512 r w k))

/-- The sum over the class axis, at a pixel, is the sum of the pixel's nineteen values. -/
theorem classSum_apply (x : FVec Ideal S1x19x128x512 .f32) (r : Fin 128) (w : Fin 512) :
    multiReduction (F := Ideal) .add [1] S1x128x512 x 0x00000000#32 reduces_S1x19x128x512_S1x128x512 (.inl rfl) rfl
      (ix3 (0 : Fin 1) r w) = ∑ k : Fin 19, x (ix4 (0 : Fin 1) k r w) := by
  refine (Ideal.multiReduction_add_single x 0x00000000#32 reduces_S1x19x128x512_S1x128x512 (.inl rfl) rfl
    (ix3 (0 : Fin 1) r w)).trans ?_
  exact Finset.sum_congr rfl fun k _ => congrArg x (lift_class reduces_S1x19x128x512_S1x128x512 r w k)

/-! ## The softmax payload -/

/-- The softmax payload at class `k` of pixel (r, w): the exponential of the score less the pixel's largest
    score, divided by the sum of those exponentials over the nineteen classes. -/
theorem pay6_apply (x0 : Vec Ideal S1x19x128x512 .f32) (k : Fin 19) (r : Fin 128) (w : Fin 512) :
    k0_pay6 x0 (ix4 (0 : Fin 1) k r w) = tSoft x0 k r w := by
  -- a score less the pixel's largest score, at any class
  have hshift : ∀ k' : Fin 19,
      subf x0 (broadcastTo S1x19x128x512 (shapeCast S1x1x128x512
          (multiReduction (F := Ideal) .maximumf [1] S1x128x512 x0 0xFF800000#32 reduces_S1x19x128x512_S1x128x512 (.inl rfl) rfl)
          shapeCasts_S1x128x512_S1x1x128x512) broadcasts_S1x1x128x512_S1x19x128x512) (ix4 (0 : Fin 1) k' r w)
        = x0 (ix4 (0 : Fin 1) k' r w) - colMax (fun c => x0 (ix4 (0 : Fin 1) c r w)) := fun k' =>
    (subf_apply _ _ _).trans (congrArg (fun t => x0 (ix4 (0 : Fin 1) k' r w) - t)
      ((bcast_pixel _ k' r w).trans (classMax_apply x0 r w)))
  unfold k0_pay6 tSoft soft
  refine (divf_apply _ _ _).trans ?_
  refine congrArg₂ Ideal.div ?_ ?_
  · exact congrArg Ideal.exp (hshift k)
  · refine (bcast_pixel _ k r w).trans ?_
    refine (classSum_apply _ r w).trans ?_
    exact Finset.sum_congr rfl fun k' _ => congrArg Ideal.exp (hshift k')

/-! ## The one-hot payload -/

/-- The comparison bit of two words, widened to 32 bits and read as a signed integer, is 1 when the words are
    equal and 0 otherwise. -/
theorem eqBit_toReal (a b : BitVec 32) :
    ((((IntOp.cmpi .eq a b).setWidth 32).toInt : ℝ) : EReal) = if a = b then 1 else 0 := by
  unfold IntOp.cmpi
  by_cases h : a = b
  · subst h
    rw [if_pos rfl]
    have e : ((BitVec.ofBool (a == a)).setWidth 32).toInt = 1 := by
      rw [show (a == a) = true from by simp]
      decide
    rw [e]
    simp
  · rw [if_neg h]
    have e : ((BitVec.ofBool (a == b)).setWidth 32).toInt = 0 := by
      rw [show (a == b) = false from by simpa using h]
      decide
    rw [e]
    simp

/-- The class iota [1,19,1,1] repeated over the pixels reads the class number at every pixel. -/
theorem bcast_class (k : Fin 19) (r : Fin 128) (w : Fin 512) :
    broadcastTo S1x19x128x512 (iota .tc S1x19x1x1 32 [1] iota_S1x19x1x1_d1_w32)
      broadcasts_S1x19x1x1_S1x19x128x512 (ix4 (0 : Fin 1) k r w) = BitVec.ofNat 32 k.val := by
  refine (broadcastTo_apply _ broadcasts_S1x19x1x1_S1x19x128x512 (ix4 (0 : Fin 1) k r w)
    (ix4 (0 : Fin 1) k (0 : Fin 1) (0 : Fin 1)) ?_).trans ?_
  · intro a
    match a with
    | ⟨0, _⟩ => rfl
    | ⟨1, _⟩ => rfl
    | ⟨2, _⟩ => rfl
    | ⟨3, _⟩ => rfl
  · exact iota_single_apply .tc S1x19x1x1 32 1 iota_S1x19x1x1_d1_w32 (ix4 (0 : Fin 1) k (0 : Fin 1) (0 : Fin 1))

/-- The one-hot payload at class `k` of pixel (r, w): 1 when the pixel's label is `k`, 0 otherwise. -/
theorem pay7_apply (x1 : Vec Ideal S1x128x512 .i32) (k : Fin 19) (r : Fin 128) (w : Fin 512) :
    k0_pay7 (F := Ideal) x1 (ix4 (0 : Fin 1) k r w) = tHot x1 k r w := by
  unfold k0_pay7 tHot hot
  exact (congrArg₂ (fun a b : BitVec 32 => ((((IntOp.cmpi .eq a b).setWidth 32).toInt : ℝ) : EReal))
    (bcast_pixel x1 k r w) (bcast_class k r w)).trans (eqBit_toReal _ _)

/-! ## The two nested lane sums: over a tile's 512 columns, then over its 128 rows -/

/-- Inserting row coordinate `r` into the class index (0, k) gives (0, k, r). -/
theorem lift_row (h : S1x19x128.Reduces [2] S1x19) (k : Fin 19) (r : Fin 128) :
    h.lift (ix2 (0 : Fin 1) k) r = ix3 (0 : Fin 1) k r := by
  funext c
  match c with
  | ⟨0, _⟩ => exact Fin.ext rfl
  | ⟨1, _⟩ => exact Fin.ext rfl
  | ⟨2, _⟩ => exact Fin.ext rfl

/-- Inserting column coordinate `w` into (0, k, r) gives (0, k, r, w). -/
theorem lift_col (h : S1x19x128x512.Reduces [3] S1x19x128) (k : Fin 19) (r : Fin 128) (w : Fin 512) :
    h.lift (ix3 (0 : Fin 1) k r) w = ix4 (0 : Fin 1) k r w := by
  funext c
  match c with
  | ⟨0, _⟩ => exact Fin.ext rfl
  | ⟨1, _⟩ => exact Fin.ext rfl
  | ⟨2, _⟩ => exact Fin.ext rfl
  | ⟨3, _⟩ => exact Fin.ext rfl

/-- A tile summed along its columns and then along its rows is, at class `k`, the double sum over the tile's
    128 rows and 512 columns. -/
theorem tileSum_apply (x : FVec Ideal S1x19x128x512 .f32) (k : Fin 19) :
    multiReduction (F := Ideal) .add [2] S1x19
        (multiReduction (F := Ideal) .add [3] S1x19x128 x 0x00000000#32 reduces_S1x19x128x512_S1x19x128 (.inl rfl) rfl)
        0x00000000#32 reduces_S1x19x128_S1x19 (.inl rfl) rfl (ix2 (0 : Fin 1) k)
      = ∑ r : Fin 128, ∑ w : Fin 512, x (ix4 (0 : Fin 1) k r w) := by
  refine (Ideal.multiReduction_add_single _ 0x00000000#32 reduces_S1x19x128_S1x19 (.inl rfl) rfl
    (ix2 (0 : Fin 1) k)).trans ?_
  refine Finset.sum_congr rfl fun r _ => ?_
  refine (congrArg _ (lift_row reduces_S1x19x128_S1x19 k r)).trans ?_
  refine (Ideal.multiReduction_add_single x 0x00000000#32 reduces_S1x19x128x512_S1x19x128 (.inl rfl) rfl
    (ix3 (0 : Fin 1) k r)).trans ?_
  exact Finset.sum_congr rfl fun w _ => congrArg x (lift_col reduces_S1x19x128x512_S1x19x128 k r w)

/-! ## The accumulators' updates -/

/-- The intersection accumulator's update: what it held plus the tile's sum of softmax · mark. -/
theorem pay9_apply (x0 : Vec Ideal S1x19x128x512 .f32) (x1 : Vec Ideal S1x128x512 .i32) (acc : Vec Ideal S1x19 .f32)
    (k : Fin 19) : k0_pay9 x0 x1 acc (ix2 (0 : Fin 1) k) = acc (ix2 (0 : Fin 1) k) + tInter x0 x1 k := by
  unfold k0_pay9 tInter
  rw [shapeCast_self]
  refine (addf_apply _ _ _).trans ?_
  refine congrArg (fun t => acc (ix2 (0 : Fin 1) k) + t) ?_
  refine (tileSum_apply _ k).trans ?_
  exact Finset.sum_congr rfl fun r _ => Finset.sum_congr rfl fun w _ =>
    (mulf_apply _ _ _).trans (congrArg₂ (fun a b : EReal => a * b) (pay6_apply x0 k r w) (pay7_apply x1 k r w))

/-- The tile's share of the union: its sum of softmaxes plus its sum of marks. -/
theorem pay8_apply (x0 : Vec Ideal S1x19x128x512 .f32) (x1 : Vec Ideal S1x128x512 .i32) (k : Fin 19) :
    k0_pay8 x0 x1 (ix2 (0 : Fin 1) k) = tUnion x0 x1 k := by
  unfold k0_pay8 tUnion
  refine (addf_apply _ _ _).trans ?_
  refine congrArg₂ (fun a b : EReal => a + b) ?_ ?_
  · refine (tileSum_apply _ k).trans ?_
    exact Finset.sum_congr rfl fun r _ => Finset.sum_congr rfl fun w _ => pay6_apply x0 k r w
  · refine (tileSum_apply _ k).trans ?_
    exact Finset.sum_congr rfl fun r _ => Finset.sum_congr rfl fun w _ => pay7_apply x1 k r w

end Cert.KernelIdeal.Pay

end
-- ==== Proof.KAccum.lean ====
/-
  The two accumulators across a batch entry's four row tiles.  At the first tile they are reset and
  end at 0 plus the tile's shares; at each later tile they end at what the tile before left plus
  the tile's shares; at the last tile the two output blocks receive them.  So after step 4·b + 3
  the first output block holds (((0 + T₀) + T₁) + T₂) + T₃ with Tₕ the share of rows
  128·h … 128·h + 127, which — addition of extended reals being commutative and associative, with
  no finiteness needed — is the sum over all 512 rows: entry b's intersection; likewise the union.
-/
import proofs.«133151_j15805479649590_2_alg».proof.Proof.Gen.KernelIdeal.Frame
import proofs.«133151_j15805479649590_2_alg».proof.Proof.Spec
import proofs.«133151_j15805479649590_2_alg».proof.Proof.KBlocks
import proofs.«133151_j15805479649590_2_alg».proof.Proof.KPieces
import proofs.«133151_j15805479649590_2_alg».proof.Proof.KPay
import Idealize.ShloMosaic.Lib.ValueIdx

noncomputable section

namespace Cert.KernelIdeal.Accum

open Cert.KernelIdeal Cert.KernelIdeal.Gen Cert.Dice
open Idealize.ShloMosaic Idealize.ShloMosaic.TcCoe Idealize.SL.Sem Idealize.ShloMosaic.ValueIdx
open scoped BigOperators

variable (m : (ℓ : Loc nD τ sig) → Buf (Elt Ideal) ℓ)

/-- The share of the intersection that grid step `t` adds at class `k`. -/
def stepI (c : Dev nD) (t : Fin cfg0.N) (k : Fin 19) : EReal :=
  tInter (iblk m c 0 t : Vec Ideal S1x19x128x512 .f32) (iblk m c 1 t : Vec Ideal S1x128x512 .i32) k

/-- The share of the union that grid step `t` adds at class `k`. -/
def stepU (c : Dev nD) (t : Fin cfg0.N) (k : Fin 19) : EReal :=
  tUnion (iblk m c 0 t : Vec Ideal S1x19x128x512 .f32) (iblk m c 1 t : Vec Ideal S1x128x512 .i32) k

/-- What the buffers hold after a step depends on the step's number only. -/
theorem outsAt0_congr (c : Dev nD) {a b : ℕ} (e : a = b) (ha : a < cfg0.N) (hb : b < cfg0.N) :
    outsAt0 m c a ha = outsAt0 m c b hb := by subst e; rfl

/-- At a batch entry's first row tile the accumulators are reset: they end at 0 plus the tile's shares. -/
theorem first_step (c : Dev nD) (t : Fin cfg0.N) (h0 : t.val % 4 = 0) (k : Fin 19) :
    (outsAt0 m c t.val t.isLt).2.2.1 (ix2 (0 : Fin 1) k) = 0 + stepI m c t k
    ∧ (outsAt0 m c t.val t.isLt).2.2.2 (ix2 (0 : Fin 1) k) = 0 + stepU m c t k := by
  have h1 : ¬t.val % 4 = 3 := by omega
  rw [outsAt0_A m c t h0 h1]
  dsimp only
  rw [Pieces.sout_A_0, Pieces.sout_A_1, Pay.pay9_apply, Pay.pay4_apply, Pay.pay1_apply, Pay.pay8_apply, Pay.pay5_apply]
  exact ⟨rfl, rfl⟩

/-- At any later row tile each accumulator ends at what the step before left plus the tile's share. -/
theorem next_step (c : Dev nD) (t t' : Fin cfg0.N) (hp : t'.val + 1 = t.val) (h0 : ¬t.val % 4 = 0) (k : Fin 19) :
    (outsAt0 m c t.val t.isLt).2.2.1 (ix2 (0 : Fin 1) k)
        = (outsAt0 m c t'.val t'.isLt).2.2.1 (ix2 (0 : Fin 1) k) + stepI m c t k
    ∧ (outsAt0 m c t.val t.isLt).2.2.2 (ix2 (0 : Fin 1) k)
        = (outsAt0 m c t'.val t'.isLt).2.2.2 (ix2 (0 : Fin 1) k) + stepU m c t k := by
  have e : t.val - 1 = t'.val := by omega
  by_cases h1 : t.val % 4 = 3
  · rw [outsAt0_C m c t h0 h1]
    dsimp only
    rw [Pieces.sout_C_0, Pieces.sout_C_1, Pay.pay9_apply, Pay.pay1_apply, Pay.pay8_apply,
      outsAt0_congr m c e _ t'.isLt]
    exact ⟨rfl, rfl⟩
  · rw [outsAt0_B m c t h0 h1]
    dsimp only
    rw [Pieces.sout_B_0, Pieces.sout_B_1, Pay.pay9_apply, Pay.pay1_apply, Pay.pay8_apply,
      outsAt0_congr m c e _ t'.isLt]
    exact ⟨rfl, rfl⟩

/-- At a batch entry's last row tile the two output blocks receive the accumulators. -/
theorem last_step_out (c : Dev nD) (t : Fin cfg0.N) (h1 : t.val % 4 = 3) (k : Fin 19) :
    (outsAt0 m c t.val t.isLt).1 (ix3 (0 : Fin 1) (0 : Fin 1) k) = (outsAt0 m c t.val t.isLt).2.2.1 (ix2 (0 : Fin 1) k)
    ∧ (outsAt0 m c t.val t.isLt).2.1 (ix3 (0 : Fin 1) (0 : Fin 1) k) = (outsAt0 m c t.val t.isLt).2.2.2 (ix2 (0 : Fin 1) k) := by
  have h0 : ¬t.val % 4 = 0 := by omega
  rw [outsAt0_C m c t h0 h1]
  dsimp only
  rw [Pieces.out_C_2, Pieces.out_C_3, Pieces.sout_C_0, Pieces.sout_C_1, Pay.pay2_apply, Pay.pay3_apply]
  exact ⟨rfl, rfl⟩

/-- The intersection share of step 4·b + h, over the whole arrays: rows 128·h … 128·h + 127 of entry b. -/
theorem stepI_eq (c : Dev nD) (t : Fin cfg0.N) (b : Fin 8) (h : Fin 4) (ht : t.val = 4 * b.val + h.val) (k : Fin 19) :
    stepI m c t k = ∑ r : Fin 128, ∑ w : Fin 512,
      pSoft (m ((c : Thread nD τ).loc main_arg0)) b k (tileRow h r) w * pHot (m ((c : Thread nD τ).loc main_arg1)) b k (tileRow h r) w := by
  unfold stepI tInter tSoft tHot pSoft pHot
  simp only [Blocks.scoreTile_apply m c t b h ht, Blocks.labelTile_apply m c t b h ht]

/-- The union share of step 4·b + h, over the whole arrays. -/
theorem stepU_eq (c : Dev nD) (t : Fin cfg0.N) (b : Fin 8) (h : Fin 4) (ht : t.val = 4 * b.val + h.val) (k : Fin 19) :
    stepU m c t k = (∑ r : Fin 128, ∑ w : Fin 512, pSoft (m ((c : Thread nD τ).loc main_arg0)) b k (tileRow h r) w)
      + (∑ r : Fin 128, ∑ w : Fin 512, pHot (m ((c : Thread nD τ).loc main_arg1)) b k (tileRow h r) w) := by
  unfold stepU tUnion tSoft tHot pSoft pHot
  simp only [Blocks.scoreTile_apply m c t b h ht, Blocks.labelTile_apply m c t b h ht]

end Cert.KernelIdeal.Accum

namespace Cert.KernelIdeal.Accum

open Cert.KernelIdeal Cert.KernelIdeal.Gen Cert.Dice
open Idealize.ShloMosaic Idealize.ShloMosaic.TcCoe Idealize.SL.Sem Idealize.ShloMosaic.ValueIdx
open scoped BigOperators

variable (m : (ℓ : Loc nD τ sig) → Buf (Elt Ideal) ℓ)

/-- Step 4·b + j is a grid step (there are 32). -/
theorem step_lt (b : Fin 8) (j : ℕ) (hj : j < 4) : 4 * b.val + j < cfg0.N := by
  have hb := b.isLt
  show 4 * b.val + j < grid0.N
  rw [N_0]; omega

/-- After batch entry b's last row tile its first output block holds, at class k, the entry's
    intersection: the four tiles' shares added in order from 0 are the sum over all 512 rows. -/
theorem out2_eq (c : Dev nD) (b : Fin 8) (k : Fin 19) (t : Fin cfg0.N) (ht : t.val = 4 * b.val + 3) :
    (outsAt0 m c t.val t.isLt).1 (ix3 (0 : Fin 1) (0 : Fin 1) k)
      = inter (m ((c : Thread nD τ).loc main_arg0)) (m ((c : Thread nD τ).loc main_arg1)) b k := by
  let t0 : Fin cfg0.N := ⟨4 * b.val + 0, step_lt b 0 (by omega)⟩
  let t1 : Fin cfg0.N := ⟨4 * b.val + 1, step_lt b 1 (by omega)⟩
  let t2 : Fin cfg0.N := ⟨4 * b.val + 2, step_lt b 2 (by omega)⟩
  have e3 : t.val % 4 = 3 := by omega
  rw [(last_step_out m c t e3 k).1,
    (next_step m c t t2 (by show 4 * b.val + 2 + 1 = t.val; omega) (by omega) k).1,
    (next_step m c t2 t1 (by show 4 * b.val + 1 + 1 = 4 * b.val + 2; omega) (by show ¬(4 * b.val + 2) % 4 = 0; omega) k).1,
    (next_step m c t1 t0 (by show 4 * b.val + 0 + 1 = 4 * b.val + 1; omega) (by show ¬(4 * b.val + 1) % 4 = 0; omega) k).1,
    (first_step m c t0 (by show (4 * b.val + 0) % 4 = 0; omega) k).1,
    stepI_eq m c t0 b 0 rfl k, stepI_eq m c t1 b 1 rfl k, stepI_eq m c t2 b 2 rfl k, stepI_eq m c t b 3 ht k]
  unfold inter
  rw [sum_rows_tiles, Fin.sum_univ_four, zero_add]

/-- And its second output block holds the entry's union. -/
theorem out3_eq (c : Dev nD) (b : Fin 8) (k : Fin 19) (t : Fin cfg0.N) (ht : t.val = 4 * b.val + 3) :
    (outsAt0 m c t.val t.isLt).2.1 (ix3 (0 : Fin 1) (0 : Fin 1) k)
      = union (m ((c : Thread nD τ).loc main_arg0)) (m ((c : Thread nD τ).loc main_arg1)) b k := by
  let t0 : Fin cfg0.N := ⟨4 * b.val + 0, step_lt b 0 (by omega)⟩
  let t1 : Fin cfg0.N := ⟨4 * b.val + 1, step_lt b 1 (by omega)⟩
  let t2 : Fin cfg0.N := ⟨4 * b.val + 2, step_lt b 2 (by omega)⟩
  have e3 : t.val % 4 = 3 := by omega
  rw [(last_step_out m c t e3 k).2,
    (next_step m c t t2 (by show 4 * b.val + 2 + 1 = t.val; omega) (by omega) k).2,
    (next_step m c t2 t1 (by show 4 * b.val + 1 + 1 = 4 * b.val + 2; omega) (by show ¬(4 * b.val + 2) % 4 = 0; omega) k).2,
    (next_step m c t1 t0 (by show 4 * b.val + 0 + 1 = 4 * b.val + 1; omega) (by show ¬(4 * b.val + 1) % 4 = 0; omega) k).2,
    (first_step m c t0 (by show (4 * b.val + 0) % 4 = 0; omega) k).2,
    stepU_eq m c t0 b 0 rfl k, stepU_eq m c t1 b 1 rfl k, stepU_eq m c t2 b 2 rfl k, stepU_eq m c t b 3 ht k]
  unfold union
  rw [sum_rows_tiles, sum_rows_tiles (fun h => ∑ w : Fin 512, pHot _ b k h w), Fin.sum_univ_four, Fin.sum_univ_four, zero_add]
  abel

end Cert.KernelIdeal.Accum

end
-- ==== Proof.KFinal.lean ====
/-
  The two result arrays of the kernel region.  The block of an output window at grid step 4·b + h
  is entry b of its [8, 1, 19] array, and it is written back only after the entry's last row tile,
  when it holds the entry's intersections (or unions) at all nineteen classes.  The eight
  write-backs therefore cover each array, which ends holding the intersections (the unions) of
  every batch entry and class.
-/
import proofs.«133151_j15805479649590_2_alg».proof.Proof.Gen.KernelIdeal.Frame
import proofs.«133151_j15805479649590_2_alg».proof.Proof.Spec
import proofs.«133151_j15805479649590_2_alg».proof.Proof.KAccum
import Idealize.ShloMosaic.Lib.ValueIdx
import Idealize.ShloMosaic.Lib.Pipeline.Value

noncomputable section

namespace Cert.KernelIdeal.Final

open Cert.KernelIdeal Cert.KernelIdeal.Gen Cert.Dice
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The intersections of all batch entries and classes, as contents of the kernel's first result array [8, 1, 19]. -/
def interArr (c : Dev nD) : Buf (Elt Ideal) ((c : Thread nD τ).loc main_v0_0) :=
  fun i => inter (m ((c : Thread nD τ).loc main_arg0)) (m ((c : Thread nD τ).loc main_arg1)) (i 0) (i 2)

/-- The unions, as contents of the second result array [8, 1, 19]. -/
def unionArr (c : Dev nD) : Buf (Elt Ideal) ((c : Thread nD τ).loc main_v0_1) :=
  fun i => union (m ((c : Thread nD τ).loc main_arg0)) (m ((c : Thread nD τ).loc main_arg1)) (i 0) (i 2)

/-- The first output window's block index at a grid step: (batch entry, 0, 0). -/
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- The second output window's likewise. -/
theorem index3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

/-- What the write-back after a batch entry's last row tile writes is that entry's block of the intersections. -/
theorem flushed2_eq (c : Dev nD) (t : Fin cfg0.N) (hf : (cfg0.win 2).flush t = true) :
    (dats m 0 c).flushed 2 t = ((cfg0.win 2).blk t).view.read (Elt Ideal) (interArr m c) := by
  have h3 : t.val % 4 = 3 := (flush0_2 t).mp hf
  have hN : t.val < 32 := lt_of_lt_of_eq t.isLt N_0
  obtain ⟨i0, i1, i2⟩ := index2 t
  funext y
  show (cfg0.win 2).cut (grid0.coords t) ((dats m 0 c).after 2 t) y = _
  rw [after0_2, View.read_apply]
  have y0 : (y 0).val < 1 := (y 0).isLt
  have y1 : (y 1).val < 1 := (y 1).isLt
  have y2 : (y 2).val < 19 := (y 2).isLt
  have hx : (cfg0.win 2).xinj (grid0.coords t) y = ix3 (0 : Fin 1) (0 : Fin 1) (⟨(y 2).val, y2⟩ : Fin 19) := by
    funext a
    apply Fin.ext
    match a with
    | ⟨0, _⟩ => show (y 0).val = 0; omega
    | ⟨1, _⟩ => show (y 1).val = 0; omega
    | ⟨2, _⟩ => rfl
  have he : ((cfg0.win 2).blk t).view.emb y = ix3 (⟨t.val / 4, by omega⟩ : Fin 8) (0 : Fin 1) (⟨(y 2).val, y2⟩ : Fin 19) := by
    funext a
    apply Fin.ext
    match a with
    | ⟨0, _⟩ => show win0_2.index t 0 * 1 + 1 * (y 0).val = t.val / 4; rw [i0]; omega
    | ⟨1, _⟩ => show win0_2.index t 1 * 1 + 1 * (y 1).val = 0; rw [i1]; omega
    | ⟨2, _⟩ => show win0_2.index t 2 * 19 + 1 * (y 2).val = (y 2).val; rw [i2]; omega
  show (outsAt0 m c t.val t.isLt).1 ((cfg0.win 2).xinj (grid0.coords t) y) = _
  rw [hx, he]
  exact Accum.out2_eq m c ⟨t.val / 4, by omega⟩ ⟨(y 2).val, y2⟩ t (by show t.val = 4 * (t.val / 4) + 3; omega)

end Cert.KernelIdeal.Final

namespace Cert.KernelIdeal.Final

open Cert.KernelIdeal Cert.KernelIdeal.Gen Cert.Dice
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- And the second window's write-back writes that entry's block of the unions. -/
theorem flushed3_eq (c : Dev nD) (t : Fin cfg0.N) (hf : (cfg0.win 3).flush t = true) :
    (dats m 0 c).flushed 3 t = ((cfg0.win 3).blk t).view.read (Elt Ideal) (unionArr m c) := by
  have h3 : t.val % 4 = 3 := (flush0_3 t).mp hf
  have hN : t.val < 32 := lt_of_lt_of_eq t.isLt N_0
  obtain ⟨i0, i1, i2⟩ := index3 t
  funext y
  show (cfg0.win 3).cut (grid0.coords t) ((dats m 0 c).after 3 t) y = _
  rw [after0_3, View.read_apply]
  have y0 : (y 0).val < 1 := (y 0).isLt
  have y1 : (y 1).val < 1 := (y 1).isLt
  have y2 : (y 2).val < 19 := (y 2).isLt
  have hx : (cfg0.win 3).xinj (grid0.coords t) y = ix3 (0 : Fin 1) (0 : Fin 1) (⟨(y 2).val, y2⟩ : Fin 19) := by
    funext a
    apply Fin.ext
    match a with
    | ⟨0, _⟩ => show (y 0).val = 0; omega
    | ⟨1, _⟩ => show (y 1).val = 0; omega
    | ⟨2, _⟩ => rfl
  have he : ((cfg0.win 3).blk t).view.emb y = ix3 (⟨t.val / 4, by omega⟩ : Fin 8) (0 : Fin 1) (⟨(y 2).val, y2⟩ : Fin 19) := by
    funext a
    apply Fin.ext
    match a with
    | ⟨0, _⟩ => show win0_3.index t 0 * 1 + 1 * (y 0).val = t.val / 4; rw [i0]; omega
    | ⟨1, _⟩ => show win0_3.index t 1 * 1 + 1 * (y 1).val = 0; rw [i1]; omega
    | ⟨2, _⟩ => show win0_3.index t 2 * 19 + 1 * (y 2).val = (y 2).val; rw [i2]; omega
  show (outsAt0 m c t.val t.isLt).2.1 ((cfg0.win 3).xinj (grid0.coords t) y) = _
  rw [hx, he]
  exact Accum.out3_eq m c ⟨t.val / 4, by omega⟩ ⟨(y 2).val, y2⟩ t (by show t.val = 4 * (t.val / 4) + 3; omega)

/-- The last row tile of batch entry `b` is grid step 4·b + 3. -/
def lastStep (b : ℕ) (hb : b < 8) : Fin cfg0.N := ⟨4 * b + 3, by show 4 * b + 3 < grid0.N; rw [N_0]; omega⟩

/-- Entry (b, 0, k) of the first result array lies in the block written back after step 4·b + 3, so the
    eight write-backs cover the array and it ends holding the intersections. -/
theorem final2 (c : Dev nD) : (dats m 0 c).arrAt 2 cfg0.N = interArr m c :=
  (dats m 0 c).arrAt_eq_of_cover 2 (interArr m c) (flushed2_eq m c) fun i => by
    have h0 : (i 0 : ℕ) < 8 := (i 0).isLt
    have h1 : (i 1 : ℕ) < 1 := (i 1).isLt
    have h2 : (i 2 : ℕ) < 19 := (i 2).isLt
    refine ⟨lastStep (i 0).val h0, (flush0_2 _).mpr (by show (4 * (i 0).val + 3) % 4 = 3; omega), ?_⟩
    obtain ⟨i0, i1, i2⟩ := index2 (lastStep (i 0).val h0)
    show i ∈ ((View.whole main_v0_0).slice (win0_2.rect (lastStep (i 0).val h0))).set
    rw [View.set_slice_whole, Rect.mem_set_unit]
    intro a
    match a with
    | ⟨0, _⟩ =>
      show win0_2.index (lastStep (i 0).val h0) 0 * 1 ≤ (i 0 : ℕ) ∧ (i 0 : ℕ) < win0_2.index (lastStep (i 0).val h0) 0 * 1 + 1
      rw [i0]; show (4 * (i 0).val + 3) / 4 * 1 ≤ (i 0 : ℕ) ∧ (i 0 : ℕ) < (4 * (i 0).val + 3) / 4 * 1 + 1; omega
    | ⟨1, _⟩ =>
      show win0_2.index (lastStep (i 0).val h0) 1 * 1 ≤ (i 1 : ℕ) ∧ (i 1 : ℕ) < win0_2.index (lastStep (i 0).val h0) 1 * 1 + 1
      rw [i1]; omega
    | ⟨2, _⟩ =>
      show win0_2.index (lastStep (i 0).val h0) 2 * 19 ≤ (i 2 : ℕ) ∧ (i 2 : ℕ) < win0_2.index (lastStep (i 0).val h0) 2 * 19 + 19
      rw [i2]; omega

/-- Likewise the second result array ends holding the unions. -/
theorem final3 (c : Dev nD) : (dats m 0 c).arrAt 3 cfg0.N = unionArr m c :=
  (dats m 0 c).arrAt_eq_of_cover 3 (unionArr m c) (flushed3_eq m c) fun i => by
    have h0 : (i 0 : ℕ) < 8 := (i 0).isLt
    have h1 : (i 1 : ℕ) < 1 := (i 1).isLt
    have h2 : (i 2 : ℕ) < 19 := (i 2).isLt
    refine ⟨lastStep (i 0).val h0, (flush0_3 _).mpr (by show (4 * (i 0).val + 3) % 4 = 3; omega), ?_⟩
    obtain ⟨i0, i1, i2⟩ := index3 (lastStep (i 0).val h0)
    show i ∈ ((View.whole main_v0_1).slice (win0_3.rect (lastStep (i 0).val h0))).set
    rw [View.set_slice_whole, Rect.mem_set_unit]
    intro a
    match a with
    | ⟨0, _⟩ =>
      show win0_3.index (lastStep (i 0).val h0) 0 * 1 ≤ (i 0 : ℕ) ∧ (i 0 : ℕ) < win0_3.index (lastStep (i 0).val h0) 0 * 1 + 1
      rw [i0]; show (4 * (i 0).val + 3) / 4 * 1 ≤ (i 0 : ℕ) ∧ (i 0 : ℕ) < (4 * (i 0).val + 3) / 4 * 1 + 1; omega
    | ⟨1, _⟩ =>
      show win0_3.index (lastStep (i 0).val h0) 1 * 1 ≤ (i 1 : ℕ) ∧ (i 1 : ℕ) < win0_3.index (lastStep (i 0).val h0) 1 * 1 + 1
      rw [i1]; omega
    | ⟨2, _⟩ =>
      show win0_3.index (lastStep (i 0).val h0) 2 * 19 ≤ (i 2 : ℕ) ∧ (i 2 : ℕ) < win0_3.index (lastStep (i 0).val h0) 2 * 19 + 19
      rw [i2]; omega

end Cert.KernelIdeal.Final

end
-- ==== Proof.KTail.lean ====
/-
  From the two result arrays to the loss.  After the kernel region the program reshapes each
  [8, 1, 19] result to [8, 19], forms (2·I + ε) / (U + ε) entry by entry, sums 1 − that over all
  152 entries from 0 and divides by 152.  Those host operations are kept as ONE function `lossOf`
  of the two [8, 19] arrays — the reference ends with the very same operations — so only its
  two arguments are opened: the reshaped results are the intersections and the unions, entry
  (b, k) of the reshape being entry (b, 0, k) of the array (the same row-major position).
-/
import proofs.«133151_j15805479649590_2_alg».proof.Proof.Gen.KernelIdeal.Frame
import proofs.«133151_j15805479649590_2_alg».proof.Proof.Spec
import proofs.«133151_j15805479649590_2_alg».proof.Proof.KFinal
import Idealize.ShloMosaic.Lib.ValueIdx
import Idealize.ShloMosaic.Lib.Pipeline.Value
import Idealize.ShloMosaic.Lib.StableHlo.Run

noncomputable section

namespace Cert.KernelIdeal.Tail

open Cert.KernelIdeal Cert.KernelIdeal.Gen Cert.Dice
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The dice loss from the [8, 19] arrays of intersections `I` and unions `U`: the mean over the 152
    entries of 1 − (2·I + ε) / (U + ε), as the host operations compute it. -/
def lossOf (I U : FVec Ideal S8x19 .f32) : FVec Ideal S_ .f32 :=
  Host.divf (F := Ideal)
    (Host.reduceAdd (F := Ideal)
      (subf (broadcastInDim S8x19 ![] bcast_S_S8x19 (constant (F := Ideal) S_ .f32 0x3F800000#32))
        (Host.divf (F := Ideal)
          (addf (mulf (broadcastInDim S8x19 ![] bcast_S_S8x19 (constant (F := Ideal) S_ .f32 0x40000000#32)) I)
            (broadcastInDim S8x19 ![] bcast_S_S8x19 (constant (F := Ideal) S_ .f32 0x322BCC77#32)))
          (addf U (broadcastInDim S8x19 ![] bcast_S_S8x19 (constant (F := Ideal) S_ .f32 0x322BCC77#32)))))
      (constant (F := Ideal) S_ .f32 0x00000000#32) reducesTo_S8x19_S_d0_1 h_S_)
    (constant (F := Ideal) S_ .f32 0x43180000#32)

/-- The intersections as an [8, 19] array. -/
def interMat (c : Dev nD) : FVec Ideal S8x19 .f32 :=
  fun i => inter (m ((c : Thread nD τ).loc main_arg0)) (m ((c : Thread nD τ).loc main_arg1)) (i 0) (i 1)

/-- The unions as an [8, 19] array. -/
def unionMat (c : Dev nD) : FVec Ideal S8x19 .f32 :=
  fun i => union (m ((c : Thread nD τ).loc main_arg0)) (m ((c : Thread nD τ).loc main_arg1)) (i 0) (i 1)

/-- Dropping the unit middle axis: entry (b, k) of an [8, 1, 19] array reshaped to [8, 19] is its entry (b, 0, k). -/
theorem reshape_apply {α : Type} (X : S8x1x19.Idx → α) (b : Fin 8) (k : Fin 19) :
    shapeCast S8x19 X shapeCasts_S8x1x19_S8x19 (ix2 b k) = X (ix3 b (0 : Fin 1) k) :=
  shapeCast_apply X shapeCasts_S8x1x19_S8x19 (ix2 b k) (ix3 b (0 : Fin 1) k) (by
    rw [Shape.rowMajor_val_three, Shape.rowMajor_val_two]
    show (b.val * 1 + 0) * 19 + k.val = b.val * 19 + k.val
    omega)

/-- What the program's result buffer holds after the host operations that follow the region. -/
theorem tail_eq (c : Dev nD) :
    Pipeline.afterTail₀ cfgs (dats m) 0 (V0 m) [hostOps1] c main_v13 = lossOf (interMat m c) (unionMat m c) := by
  have hW2 : Pipeline.withArrays (cfgs 0).spec c (V0 m c) (fun w => (dats m 0 c).arrAt w (cfgs 0).N) (Proc.devRef .tc main_v0_0)
      = Final.interArr m c :=
    (Pipeline.withArrays_arr spec0 launch0.win.arr_inj c _ _ 2).trans (Final.final2 m c)
  have hW3 : Pipeline.withArrays (cfgs 0).spec c (V0 m c) (fun w => (dats m 0 c).arrAt w (cfgs 0).N) (Proc.devRef .tc main_v0_1)
      = Final.unionArr m c :=
    (Pipeline.withArrays_arr spec0 launch0.win.arr_inj c _ _ 3).trans (Final.final3 m c)
  unfold Pipeline.afterTail₀
  show StableHlo.after hostOps1 _ (Proc.devRef .tc main_v13) = _
  after_results
  show lossOf _ _ = lossOf _ _
  refine congrArg₂ lossOf (funext fun i => ?_) (funext fun i => ?_)
  · obtain ⟨b, k, rfl⟩ : ∃ (b : Fin 8) (k : Fin 19), i = ix2 b k := ⟨i 0, i 1, eq_ix2 i⟩
    show shapeCast S8x19 _ shapeCasts_S8x1x19_S8x19 (ix2 b k) = _
    rw [hW2, reshape_apply]
    rfl
  · obtain ⟨b, k, rfl⟩ : ∃ (b : Fin 8) (k : Fin 19), i = ix2 b k := ⟨i 0, i 1, eq_ix2 i⟩
    show shapeCast S8x19 _ shapeCasts_S8x1x19_S8x19 (ix2 b k) = _
    rw [hW3, reshape_apply]
    rfl

/-- The kernel program's run, read: every weakly fair execution terminates with the result at the loss of the
    intersections and unions of the argument arrays, and the arguments unchanged. -/
theorem run : θ_run defs (onTc (τ := τ) (main (F := Ideal))) ⟨m, fun _ => 0, ρ⟩ fun r => ∀ c : Dev nD,
      r.2.mem ((c : Thread nD τ).loc main_v13) = lossOf (interMat m c) (unionMat m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v13 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tail

end
-- ==== Proof.RefValue.lean ====
/-
  The reference's two [8, 19] intermediate arrays, read at an index over the extended reals, are the
  specification's intersection and union.

  The reference computes, for every pixel (b, h, w), the largest of its nineteen class scores (a fold of
  `max` over the class axis from −∞, taken once more against −∞), the exponentials of the scores less that
  maximum, their sum over the classes, and the quotient: the softmax.  The one-hot mark is the equality
  test of the pixel's label against the class number, read as 0 or 1.  The intersection sums softmax · mark
  over the two spatial axes from a zero initial value, and the union adds the two spatial sums of the
  softmax and of the mark.  Each step below reads one of these operations at an index built from literal
  coordinates; the only re-indexing is the sum over the indices whose spatial coordinates drop to (b, k),
  which is the double sum over the 512 rows and the 512 columns.
-/
import proofs.«133151_j15805479649590_2_alg».proof.Proof.Gen.ReferenceIdeal.Read
import proofs.«133151_j15805479649590_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Cert.Dice Idealize.ShloMosaic Idealize.ShloMosaic.ValueIdx
open scoped BigOperators

/-! ## A sum over the two spatial axes -/

/-- Dropping the two spatial coordinates of a score-shaped index leaves its batch entry and class. -/
theorem drop_ix4 (h' : S8x19x512x512.ReducesTo [2, 3] S8x19) (b : Fin 8) (k : Fin 19) (h w : Fin 512) :
    h'.drop (ix4 b k h w) = ix2 b k := by
  funext a
  refine Fin.ext ?_
  match a with
  | ⟨0, _⟩ => exact h'.drop_apply_val_of_eq (ix4 b k h w) (0 : Fin 2) (0 : Fin 4)
  | ⟨1, _⟩ => exact h'.drop_apply_val_of_eq (ix4 b k h w) (1 : Fin 2) (1 : Fin 4)

/-- An index whose two spatial coordinates drop to (b, k) is (b, k) with those two coordinates put back. -/
theorem eq_ix4_of_drop (h' : S8x19x512x512.ReducesTo [2, 3] S8x19) (b : Fin 8) (k : Fin 19)
    (i : S8x19x512x512.Idx) (hi : h'.drop i = ix2 b k) : ix4 b k (i 2 : Fin 512) (i 3 : Fin 512) = i := by
  have h0 : (i 0).val = b.val := by
    rw [← h'.drop_apply_val_of_eq i (0 : Fin 2) (0 : Fin 4), hi]
  have h1 : (i 1).val = k.val := by
    rw [← h'.drop_apply_val_of_eq i (1 : Fin 2) (1 : Fin 4), hi]
  funext a
  refine Fin.ext ?_
  match a with
  | ⟨0, _⟩ => exact h0.symm
  | ⟨1, _⟩ => exact h1.symm
  | ⟨2, _⟩ => rfl
  | ⟨3, _⟩ => rfl

/-- In any additive commutative monoid, the sum over the score-shaped indices whose two spatial
    coordinates drop to (b, k) is the double sum over the 512 rows and the 512 columns. -/
theorem sum_filter_drop_hw {M : Type*} [AddCommMonoid M] (h' : S8x19x512x512.ReducesTo [2, 3] S8x19)
    (x : S8x19x512x512.Idx → M) (b : Fin 8) (k : Fin 19) :
    ∑ i ∈ Finset.univ.filter (fun i => h'.drop i = ix2 b k), x i
      = ∑ h : Fin 512, ∑ w : Fin 512, x (ix4 b k h w) := by
  rw [← Fintype.sum_prod_type (f := fun p : Fin 512 × Fin 512 => x (ix4 b k p.1 p.2))]
  refine Finset.sum_nbij' (fun i => ((i 2 : Fin 512), (i 3 : Fin 512))) (fun p => ix4 b k p.1 p.2) ?_ ?_ ?_ ?_ ?_
  · intro i _; exact Finset.mem_univ _
  · intro p _; exact Finset.mem_filter.2 ⟨Finset.mem_univ _, drop_ix4 h' b k p.1 p.2⟩
  · intro i hi; exact eq_ix4_of_drop h' b k i (Finset.mem_filter.1 hi).2
  · intro p _; rfl
  · intro i hi; exact congrArg x (eq_ix4_of_drop h' b k i (Finset.mem_filter.1 hi).2).symm

/-! ## The one-hot mark -/

/-- The f32 word `0xFF800000` is −∞. -/
theorem ofBits_neg_inf_f32 : Ideal.ofBits .f32 0xFF800000#32 = ⊥ := by simp [Ideal.ofBits, Ideal.ieee]

/-- The one-bit word of an equality test, read as an unsigned number, is 1 when the words agree and 0 otherwise. -/
theorem uitofp_cmpi_eq (x y : BitVec 32) :
    FloatOps.uitofp (F := Ideal) .f32 (IntOp.cmpi .eq x y) = if x = y then (1 : EReal) else 0 := by
  show (((IntOp.cmpi .eq x y).toNat : ℝ) : EReal) = _
  by_cases hxy : x = y
  · rw [if_pos hxy]; subst hxy; simp [IntOp.cmpi]
  · rw [if_neg hxy]; simp [IntOp.cmpi, hxy]

theorem ref_hot (a1 : (⟨S8x512x512, .i32⟩ : BufTy).Contents (Elt Ideal)) (b : Fin 8) (k : Fin 19) (h w : Fin 512) :
    val_main_v17 (F := Ideal) a1 (ix4 b k h w) = pHot a1 b k h w := by
  have e1 : idx_main_v11 (idx_main_v14 (ix4 b k h w)) = ix3 b h w :=
    funext fun a => Fin.ext (by match a with | ⟨0, _⟩ => rfl | ⟨1, _⟩ => rfl | ⟨2, _⟩ => rfl)
  rw [val_main_v17_apply, val_main_v16_apply, val_main_v14_apply, val_main_v11_apply, val_main_v15_apply,
    val_main_v13_apply, val_main_v12_apply, e1, uitofp_cmpi_eq]
  rfl

/-! ## The softmax -/

/-- The class-axis witness in the form that names the index with a class coordinate inserted. -/
theorem reduces_d1 : S8x19x512x512.Reduces [1] S8x512x512 := by decide

/-- Inserting class `k` into the pixel index (b, h, w) gives (b, k, h, w). -/
theorem lift_ix3 (b : Fin 8) (k : Fin 19) (h w : Fin 512) :
    reduces_d1.lift (ix3 b h w) k = ix4 b k h w :=
  funext fun a => Fin.ext (by match a with | ⟨0, _⟩ => rfl | ⟨1, _⟩ => rfl | ⟨2, _⟩ => rfl | ⟨3, _⟩ => rfl)

/-- The reference's running maximum of a pixel's scores — the fold of `max` over the class axis from −∞,
    then once more against −∞ — is the specification's largest score. -/
theorem ref_max (a0 : (⟨S8x19x512x512, .f32⟩ : BufTy).Contents (Elt Ideal)) (b : Fin 8) (h w : Fin 512) :
    val_main_v2 (F := Ideal) a0 (ix3 b h w) = colMax (fun k => a0 (ix4 b k h w)) := by
  rw [val_main_v2_apply, val_main_v1_apply, val_main_cst_0_apply]
  unfold val_main_v0
  have hf := Host.reduce_eq_fold_single (FloatOps.maximumf (F := Ideal) (φ := .f32)) a0 (val_main_cst (F := Ideal))
    Gen.reducesTo_S8x19x512x512_S8x512x512_d1 reduces_d1 Gen.h_S_ (ix3 b h w)
  rw [hf, val_main_cst_apply]
  have hbot : FloatOps.ofBits (F := Ideal) .f32 0xFF800000#32 = (⊥ : EReal) := ofBits_neg_inf_f32
  rw [hbot]
  unfold colMax
  rw [ofBits_neg_inf_f32]
  exact (max_eq_right bot_le).trans (Finset.fold_congr fun k _ => congrArg a0 (lift_ix3 b k h w))

/-- The reference's exponential at (b, k, h, w): the score less the pixel's largest score, exponentiated. -/
theorem ref_exp (a0 : (⟨S8x19x512x512, .f32⟩ : BufTy).Contents (Elt Ideal)) (b : Fin 8) (k : Fin 19) (h w : Fin 512) :
    val_main_v6 (F := Ideal) a0 (ix4 b k h w)
      = Ideal.exp (a0 (ix4 b k h w) - colMax (fun k' => a0 (ix4 b k' h w))) := by
  have e : idx_main_v3 (idx_main_v4 (ix4 b k h w)) = ix3 b h w :=
    funext fun a => Fin.ext (by match a with | ⟨0, _⟩ => rfl | ⟨1, _⟩ => rfl | ⟨2, _⟩ => rfl)
  rw [val_main_v6_apply, val_main_v5_apply, val_main_v4_apply, val_main_v3_apply, e, ref_max]
  rfl

/-- The reference's softmax denominator at pixel (b, h, w): the sum over the classes of those exponentials. -/
theorem ref_den (a0 : (⟨S8x19x512x512, .f32⟩ : BufTy).Contents (Elt Ideal)) (b : Fin 8) (h w : Fin 512) :
    val_main_v7 (F := Ideal) a0 (ix3 b h w)
      = ∑ k : Fin 19, Ideal.exp (a0 (ix4 b k h w) - colMax (fun k' => a0 (ix4 b k' h w))) := by
  have e : ∀ k : Fin 19, idx_main_v7 (ix3 b h w) k = ix4 b k h w := fun k =>
    funext fun a => Fin.ext (by match a with | ⟨0, _⟩ => rfl | ⟨1, _⟩ => rfl | ⟨2, _⟩ => rfl | ⟨3, _⟩ => rfl)
  rw [val_main_v7_apply, val_main_cst_1_apply, Ideal.ofBits_def, Ideal.ofBits_zero_f32, zero_add]
  exact Finset.sum_congr rfl fun k _ => by rw [e k, ref_exp]

theorem ref_soft (a0 : (⟨S8x19x512x512, .f32⟩ : BufTy).Contents (Elt Ideal)) (b : Fin 8) (k : Fin 19) (h w : Fin 512) :
    val_main_v10 (F := Ideal) a0 (ix4 b k h w) = pSoft a0 b k h w := by
  have e : idx_main_v8 (idx_main_v9 (ix4 b k h w)) = ix3 b h w :=
    funext fun a => Fin.ext (by match a with | ⟨0, _⟩ => rfl | ⟨1, _⟩ => rfl | ⟨2, _⟩ => rfl)
  rw [val_main_v10_apply, val_main_v9_apply, val_main_v8_apply, e, ref_exp, ref_den]
  rfl

/-! ## The intersection and the union -/

/-- A sum of a score-shaped array over its two spatial axes from a zero initial value, read at (b, k):
    the double sum over the rows and the columns. -/
theorem reduceAdd_hw (y : (⟨S8x19x512x512, .f32⟩ : BufTy).Contents (Elt Ideal))
    (init : (⟨S_, .f32⟩ : BufTy).Contents (Elt Ideal)) (hinit : init (Shape.Idx.first Gen.h_S_) = (0 : EReal))
    (b : Fin 8) (k : Fin 19) :
    Host.reduceAdd (F := Ideal) (φ := .f32) y init Gen.reducesTo_S8x19x512x512_S8x19_d2_3 Gen.h_S_ (ix2 b k)
      = ∑ h : Fin 512, ∑ w : Fin 512, y (ix4 b k h w) := by
  show init (Shape.Idx.first Gen.h_S_)
      + ∑ i ∈ Finset.univ.filter (fun i => Gen.reducesTo_S8x19x512x512_S8x19_d2_3.drop i = ix2 b k), y i = _
  rw [hinit, zero_add]
  exact sum_filter_drop_hw Gen.reducesTo_S8x19x512x512_S8x19_d2_3 y b k

/-- The f32 zero word, read as the initial value of a sum, is 0. -/
theorem zero_word : FloatOps.ofBits (F := Ideal) .f32 0x00000000#32 = (0 : EReal) := Ideal.ofBits_zero_f32

theorem ref_inter (a0 : (⟨S8x19x512x512, .f32⟩ : BufTy).Contents (Elt Ideal))
    (a1 : (⟨S8x512x512, .i32⟩ : BufTy).Contents (Elt Ideal)) (b : Fin 8) (k : Fin 19) :
    val_main_v19 (F := Ideal) a0 a1 (ix2 b k) = inter a0 a1 b k := by
  unfold val_main_v19
  rw [reduceAdd_hw _ _ ((val_main_cst_2_apply _).trans zero_word)]
  unfold inter
  exact Finset.sum_congr rfl fun h _ => Finset.sum_congr rfl fun w _ => by
    rw [val_main_v18_apply, ref_soft, ref_hot]; rfl

theorem ref_union (a0 : (⟨S8x19x512x512, .f32⟩ : BufTy).Contents (Elt Ideal))
    (a1 : (⟨S8x512x512, .i32⟩ : BufTy).Contents (Elt Ideal)) (b : Fin 8) (k : Fin 19) :
    val_main_v22 (F := Ideal) a0 a1 (ix2 b k) = union a0 a1 b k := by
  rw [val_main_v22_apply]
  unfold val_main_v20 val_main_v21
  rw [reduceAdd_hw _ _ ((val_main_cst_3_apply _).trans zero_word),
    reduceAdd_hw _ _ ((val_main_cst_4_apply _).trans zero_word), Ideal.addf_def]
  unfold union
  refine congrArg₂ (· + ·) ?_ ?_
  · exact Finset.sum_congr rfl fun h _ => Finset.sum_congr rfl fun w _ => ref_soft a0 b k h w
  · exact Finset.sum_congr rfl fun h _ => Finset.sum_congr rfl fun w _ => ref_hot a1 b k h w

end Cert.ReferenceIdeal.RefValue

end
-- ==== Proof.lean ====
/-
  The dice-loss kernel against its jnp reference: the proof of `Cert.Claim`.

  Both programs compute, for each of 8 batch entries and 19 classes, the intersection
  Σ softmax·mark and the union Σ softmax + Σ mark over the 512 × 512 pixels, and then the same
  loss of those two [8, 19] arrays.  The kernel sums each entry's pixels tile by tile — four
  tiles of 128 rows, each tile summed along a row and then over its rows, accumulated from 0
  across the four grid steps — where the reference sums over both spatial axes at once; over
  the extended reals addition is commutative and associative, so the two arrangements agree with
  no appeal to finiteness, and the softmax and the one-hot mark are the same function of the
  same entries on both sides (the reference's extra maximum with −∞ changes nothing).
  The three frames are the generated ones (the reference's is its generated run with the
  result dropped); the ideal pass rewrote nothing, so `preserves` is trivial.
-/
import proofs.«133151_j15805479649590_2_alg».proof.Defs
import proofs.«133151_j15805479649590_2_alg».proof.Proof.Gen.Kernel
import proofs.«133151_j15805479649590_2_alg».proof.Proof.Gen.Kernel.Frame
import proofs.«133151_j15805479649590_2_alg».proof.Proof.Gen.KernelIdeal
import proofs.«133151_j15805479649590_2_alg».proof.Proof.Gen.KernelIdeal.Frame
import proofs.«133151_j15805479649590_2_alg».proof.Proof.Gen.ReferenceIdeal
import proofs.«133151_j15805479649590_2_alg».proof.Proof.Gen.ReferenceIdeal.Run
import proofs.«133151_j15805479649590_2_alg».proof.Proof.Gen.ReferenceIdeal.Read
import proofs.«133151_j15805479649590_2_alg».proof.Proof.Gen.Pre_finite_inputs
import proofs.«133151_j15805479649590_2_alg».proof.Proof.Spec
import proofs.«133151_j15805479649590_2_alg».proof.Proof.KTail
import proofs.«133151_j15805479649590_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The reference's result is the same loss function of ITS two [8, 19] arrays: its last fifteen host
    operations are the kernel program's, word for word. -/
theorem ref_loss (a0 : (⟨Cert.ReferenceIdeal.S8x19x512x512, .f32⟩ : BufTy).Contents (Elt Ideal))
    (a1 : (⟨Cert.ReferenceIdeal.S8x512x512, .i32⟩ : BufTy).Contents (Elt Ideal)) :
    Cert.ReferenceIdeal.Read.val_main_v33 (F := Ideal) a0 a1
      = Cert.KernelIdeal.Tail.lossOf (Cert.ReferenceIdeal.Read.val_main_v19 (F := Ideal) a0 a1)
          (Cert.ReferenceIdeal.Read.val_main_v22 (F := Ideal) a0 a1) := by
  unfold Cert.ReferenceIdeal.Read.val_main_v33 Cert.ReferenceIdeal.Read.val_main_v32 Cert.ReferenceIdeal.Read.val_main_v31
    Cert.ReferenceIdeal.Read.val_main_v30 Cert.ReferenceIdeal.Read.val_main_v29 Cert.ReferenceIdeal.Read.val_main_v28
    Cert.ReferenceIdeal.Read.val_main_v27 Cert.ReferenceIdeal.Read.val_main_v26 Cert.ReferenceIdeal.Read.val_main_v25
    Cert.ReferenceIdeal.Read.val_main_v24 Cert.ReferenceIdeal.Read.val_main_v23 Cert.ReferenceIdeal.Read.val_main_cst_5
    Cert.ReferenceIdeal.Read.val_main_cst_6 Cert.ReferenceIdeal.Read.val_main_cst_7 Cert.ReferenceIdeal.Read.val_main_cst_8
    Cert.ReferenceIdeal.Read.val_main_cst_9 Cert.ReferenceIdeal.Read.val_main_cst_10 Cert.KernelIdeal.Tail.lossOf
  rfl

/-- At `Ideal` both programs end with the loss of the intersections and unions of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Tail.lossOf (Cert.KernelIdeal.Tail.interMat m c) (Cert.KernelIdeal.Tail.unionMat m c),
    Cert.KernelIdeal.Tail.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v33_eq _ _).trans ((ref_loss _ _).trans ?_))
  refine congrArg₂ Cert.KernelIdeal.Tail.lossOf (funext fun i => ?_) (funext fun i => ?_)
  · obtain ⟨b, k, rfl⟩ : ∃ (b : Fin 8) (k : Fin 19), i = ix2 b k := ⟨i 0, i 1, eq_ix2 i⟩
    rw [Cert.ReferenceIdeal.RefValue.ref_inter, (hagree c).1, (hagree c).2]
    rfl
  · obtain ⟨b, k, rfl⟩ : ∃ (b : Fin 8) (k : Fin 19), i = ix2 b k := ⟨i 0, i 1, eq_ix2 i⟩
    rw [Cert.ReferenceIdeal.RefValue.ref_union, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
